-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x1 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x1 .f32 := Host.absf main_arg4
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x1 : Shape := ⟨2, ![128, 1]⟩
abbrev S1 : Shape := ⟨1, ![1]⟩
abbrev S800000x1 : Shape := ⟨2, ![800000, 1]⟩
abbrev S_ : Shape := ⟨0, ![]⟩
abbrev S800000x128 : Shape := ⟨2, ![800000, 128]⟩
abbrev S1x1 : Shape := ⟨2, ![1, 1]⟩
abbrev S2000x128 : Shape := ⟨2, ![2000, 128]⟩
abbrev S2000x1 : Shape := ⟨2, ![2000, 1]⟩

abbrev nBuf : Space → Nat
  | .hbm => 24
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x1, .f32⟩
  | .hbm, ⟨5, _⟩ => ⟨S1, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x1, .f32⟩
  | .hbm, ⟨23, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x1, .f32⟩
  | .local _ .vmem, ⟨5, _⟩ => ⟨S1x1, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x1 : Shape := ⟨2, ![128, 1]⟩
abbrev S1 : Shape := ⟨1, ![1]⟩
abbrev S800000x1 : Shape := ⟨2, ![800000, 1]⟩
abbrev S_ : Shape := ⟨0, ![]⟩
abbrev S800000x128 : Shape := ⟨2, ![800000, 128]⟩
abbrev S50000x1 : Shape := ⟨2, ![50000, 1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x1, .f32⟩
  | .hbm, ⟨5, _⟩ => ⟨S1, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x1, .f32⟩
  | .hbm, ⟨23, _⟩ => ⟨S1x1, .f32⟩
  | .hbm, ⟨24, _⟩ => ⟨S50000x1, .f32⟩
  | .hbm, ⟨25, _⟩ => ⟨S50000x1, .f32⟩
  | .hbm, ⟨26, _⟩ => ⟨S50000x1, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.GatedMix.lean ====
/-
  The mathematics of the gated residual combine, with no program in sight.

  Each node `r` has an aggregated feature row `h r ·` (128 entries) and its own feature row `x r ·`. The node's
  gate is the sigmoid of one inner product, `g r = σ(Σ_k h r k · w k + b)`, and the output mixes the two rows by it:
  `out r c = g r · h r c + (1 − g r) · x r c`. Everything is read on the extended reals, where the sigmoid is
  `σ z = 1 / (1 + e^(−z))` with its limits `0` and `1` at the infinities.
-/
import Idealize.ShloMosaic.PureOps.Ideal
import Idealize.ShloMosaic.PureOps.IdealRules
import Idealize.ShloMosaic.Lib.ValueIdx

noncomputable section

namespace Cert.GatedMix

open Idealize.ShloMosaic Idealize.ShloMosaic.ValueIdx

/-- A node's gate: the sigmoid of the inner product of its aggregated row with the gate weights, plus the bias. -/
def gate (hrow w : Fin 128 → EReal) (b : EReal) : EReal :=
  Ideal.logistic ((∑ k : Fin 128, hrow k * w k) + b)

/-- One output entry: the gate weighs the aggregated entry, its complement weighs the node's own entry. -/
def mix (hrow w : Fin 128 → EReal) (b hrc xrc : EReal) : EReal :=
  gate hrow w b * hrc + (1 - gate hrow w b) * xrc

/-- The whole output as one function of the aggregated features, the node features, the gate weights (a column) and the
    bias: entry `(r, c)` mixes `h r c` and `x r c` by node `r`'s gate, which reads all of row `r` of `h`. -/
def out (h x : (⟨2, ![50000, 128]⟩ : Shape).Idx → EReal) (w : (⟨2, ![128, 1]⟩ : Shape).Idx → EReal) (b : EReal) :
    (⟨2, ![50000, 128]⟩ : Shape).Idx → EReal :=
  fun i => mix (fun k => h (ix2 (i 0) k)) (fun k => w (ix2 k (0 : Fin 1))) b (h i) (x i)

/-- The single-precision word of `1.0` denotes the real number one. -/
theorem one_f32 : Ideal.ofBits .f32 0x3F800000#32 = 1 := IdealRules.sign_bit.ideal_onePat .f32

/-- The sigmoid spelt out operation by operation — negate, exponentiate, add one, divide one by the result — is the
    sigmoid: on the extended reals this is its definition, corners included. -/
theorem sigmoid_spelt (z : EReal) : Ideal.div 1 (1 + Ideal.exp (-z)) = Ideal.logistic z := rfl

end Cert.GatedMix

end
-- ==== Proof.RefIsMix.lean ====
/-
  The reference computes the gated combine.

  Read one operation at a time, the reference's result at entry `(r, c)` is
  `(1 / (1 + e^(−z r))) · h r c + (1 − 1 / (1 + e^(−z r))) · x r c` with `z r = Σ_k h r k · w k 0 + b`, where `h` is
  the array its gather, scaling and segment sum produce (never opened here) and every `1` is the single-precision word
  of `1.0`. That word denotes one, and one over one plus the exponential of the negation is the sigmoid, so the result
  is the specification's `out` of `h`, the node features, the gate weights and the bias.
-/
import proofs.«151498_j54966991454711_1_alg».proof.Proof.Gen.ReferenceIdeal.Read
import proofs.«151498_j54966991454711_1_alg».proof.Proof.GatedMix

noncomputable section

namespace Cert.ReferenceIdeal.IsMix

open Cert.ReferenceIdeal Cert.ReferenceIdeal.Read Idealize.ShloMosaic Idealize.ShloMosaic.ValueIdx Cert.GatedMix

/-- The reference's result array is `out` of the aggregated features it computed on the way (`val_main_v12`), the node
    features, the gate weights and the one bias entry. Entry `(r, c)` reads row `r` of the aggregated features through
    the inner product (left index `(r, k)`, right index `(k, 0)`), the bias through two broadcasts (index `0`), and the
    two mixed entries at `(r, c)` itself. -/
theorem val_eq_out (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x1, .f32⟩ : BufTy).Contents (Elt Ideal))
    (x5 : (⟨S1, .f32⟩ : BufTy).Contents (Elt Ideal)) :
    val_main_v29 (F := Ideal) x0 x1 x2 x3 x4 x5
      = out (val_main_v12 (F := Ideal) x0 x1 x2 x3) x0 x4 (x5 (ix1 (0 : Fin 1))) := by
  funext i
  -- the broadcast of the gate column reads row `i 0`, column `0`, for both of its uses
  have e27 : idx_main_v27 i = idx_main_v23 i := funext fun a => by
    match a with
    | ⟨0, _⟩ => rfl
    | ⟨1, _⟩ => rfl
  -- the inner product's left factor at contraction index `k` sits at `(i 0, k)` …
  have el : ∀ k : Fin 128, lidx_main_v13 (idx_main_v23 i) k = ix2 (i 0) k := fun k => funext fun a => by
    match a with
    | ⟨0, _⟩ => rfl
    | ⟨1, _⟩ => rfl
  -- … and its right factor at `(k, 0)`
  have er : ∀ k : Fin 128, ridx_main_v13 (idx_main_v23 i) k = ix2 k (0 : Fin 1) := fun k => funext fun a => by
    match a with
    | ⟨0, _⟩ => rfl
    | ⟨1, _⟩ => rfl
  -- the bias, broadcast twice, is read at its one index
  have eb : idx_main_v14 (idx_main_v15 (idx_main_v23 i)) = ix1 (0 : Fin 1) := funext fun a => by
    match a with
    | ⟨0, _⟩ => rfl
  -- open the reference one operation at a time, outermost first; both uses of the gate column then read the same row
  rw [val_main_v29_apply, val_main_v24_apply, val_main_v28_apply, val_main_v23_apply, val_main_v27_apply, e27,
    val_main_v26_apply, val_main_v25_apply, val_main_cst_3_apply, val_main_v22_apply, val_main_v21_apply,
    val_main_cst_2_apply, val_main_v20_apply, val_main_v19_apply, val_main_cst_1_apply, val_main_v18_apply,
    val_main_v17_apply, val_main_v16_apply, val_main_v15_apply, val_main_v14_apply, eb, val_main_v13_apply]
  -- from here the aggregated features are any array at all
  generalize val_main_v12 (F := Ideal) x0 x1 x2 x3 = H
  -- the inner product runs over row `i 0` of the aggregated features and column `0` of the weights
  have hs : (∑ k : Fin 128, H (lidx_main_v13 (idx_main_v23 i) k) * x4 (ridx_main_v13 (idx_main_v23 i) k))
      = ∑ k : Fin 128, H (ix2 (i 0) k) * x4 (ix2 k (0 : Fin 1)) :=
    Finset.sum_congr rfl fun k _ => by rw [el k, er k]; rfl
  rw [hs]
  -- every `1` is the word of `1.0`, which denotes one; what remains is the sigmoid spelt out, which is the sigmoid
  rw [show FloatOps.ofBits (F := Ideal) .f32 0x3F800000#32 = 1 from one_f32]
  rfl

end Cert.ReferenceIdeal.IsMix

end
-- ==== Proof.StoredBlock.lean ====
/-
  What the kernel body stores, entry by entry.

  At one grid point the body holds a block of 2000 rows: `hb` of the aggregated features and `xb` of the node
  features, with the whole gate-weight column `w` and the bias `b` (a 1×1 array). It multiplies `hb` by `w` into a
  zero accumulator, adds the bias broadcast down the column, takes the sigmoid, and stores
  `gate · hb + (1 − gate) · xb` with the gate column broadcast across the 128 lanes. Entry `(r, c)` of the stored block
  is therefore the specification's `mix` of row `r` of `hb`, the weights, the bias, and the two entries at `(r, c)`:
  the product into a zero accumulator is the plain sum over the 128 contraction indices, and the two broadcasts read
  row `r`, column `0` of the gate column and the one entry of the bias.
-/
import proofs.«151498_j54966991454711_1_alg».proof.Proof.Gen.KernelIdeal.Skeleton
import proofs.«151498_j54966991454711_1_alg».proof.Proof.GatedMix
import Idealize.ShloMosaic.Lib.Pipeline.Value
import Idealize.ShloMosaic.Lib.ValueIdx
import Idealize.ShloMosaic.PureOps.Ideal.Laws

noncomputable section

namespace Cert.KernelIdeal.Stored

open Cert.KernelIdeal Cert.KernelIdeal.Gen Idealize.ShloMosaic Idealize.ShloMosaic.ValueIdx Cert.GatedMix

/-! ## The two broadcasts -/

/-- A column broadcast across the lanes reads its row's one entry. -/
theorem lanes_apply {α : Type} (X : S2000x1.Idx → α) (h : S2000x1.Broadcasts S2000x128) (r : Fin 2000) (c : Fin 128) :
    broadcastTo S2000x128 X h (ix2 r c) = X (ix2 r (0 : Fin 1)) :=
  broadcastTo_apply X h (ix2 r c) (ix2 r (0 : Fin 1)) (fun a => by
    match a with
    | ⟨0, _⟩ => show r.val = if (2000 : Nat) = 1 then 0 else r.val; rw [if_neg (by decide)]
    | ⟨1, _⟩ => show 0 = if (1 : Nat) = 1 then 0 else c.val; rw [if_pos rfl])

/-- A 1×1 array broadcast down a column reads its one entry. -/
theorem rows_apply {α : Type} (X : S1x1.Idx → α) (h : S1x1.Broadcasts S2000x1) (r : Fin 2000) :
    broadcastTo S2000x1 X h (ix2 r (0 : Fin 1)) = X (ix2 (0 : Fin 1) (0 : Fin 1)) :=
  broadcastTo_apply X h (ix2 r (0 : Fin 1)) (ix2 (0 : Fin 1) (0 : Fin 1)) (fun a => by
    match a with
    | ⟨0, _⟩ => show 0 = if (1 : Nat) = 1 then 0 else r.val; rw [if_pos rfl]
    | ⟨1, _⟩ => show 0 = if (1 : Nat) = 1 then 0 else 0; rw [if_pos rfl])

/-! ## The inner product -/

local notation "D" => dot_S2000x128_S128x1_S2000x1_1_0_0_1_n_n

/-- The left operand's row coordinate is the output's. -/
theorem lhs_row (i : S2000x1.Idx) (q : DotDims.contr D |>.Idx) : (DotDims.lhsIdx D i q 0).val = (i 0).val := by
  unfold DotDims.lhsIdx
  rw [dif_neg (show ¬(0 : Fin S2000x128.rank) ∈ DotDims.lhsBatch D by decide),
    dif_pos (show (0 : Fin S2000x128.rank) ∈ DotDims.lhsNonContracting D by decide)]
  rfl

/-- The right operand's column coordinate is the output's. -/
theorem rhs_col (i : S2000x1.Idx) (q : DotDims.contr D |>.Idx) : (DotDims.rhsIdx D i q 1).val = (i 1).val := by
  unfold DotDims.rhsIdx
  rw [dif_neg (show ¬(1 : Fin S128x1.rank) ∈ DotDims.rhsBatch D by decide),
    dif_pos (show (1 : Fin S128x1.rank) ∈ DotDims.rhsNonContracting D by decide)]
  rfl

/-- The block's product with the weight column, accumulated from zero, is at row `r` the sum over the 128 contraction
    indices of `A r k · W k 0`: no accumulator term, no order of summation left. -/
theorem product_apply (A : FVec Ideal S2000x128 .f32) (W : FVec Ideal S128x1 .f32) (r : Fin 2000) :
    matmul D none A W (constant (F := Ideal) S2000x1 .f32 0x00000000#32) (ix2 r (0 : Fin 1))
      = ∑ k : Fin 128, A (ix2 r k) * W (ix2 k (0 : Fin 1)) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : DotDims.lhsIdx D (ix2 r (0 : Fin 1)) ((contrEquiv1 D 128 rfl rfl).symm k) = ix2 r k :=
    funext fun a => Fin.ext (by
      match a with
      | ⟨0, _⟩ => exact lhs_row _ _
      | ⟨1, _⟩ => exact (DotDims.lhsIdx_val_of_single D rfl _ _).trans hk)
  have er : DotDims.rhsIdx D (ix2 r (0 : Fin 1)) ((contrEquiv1 D 128 rfl rfl).symm k) = ix2 k (0 : Fin 1) :=
    funext fun a => Fin.ext (by
      match a with
      | ⟨0, _⟩ => exact (DotDims.rhsIdx_val_of_single D rfl _ _).trans hk
      | ⟨1, _⟩ => exact rhs_col _ _)
  rw [el, er]

/-! ## The stored block -/

/-- Entry `(r, c)` of what the body stores is `mix` of row `r` of the aggregated block, the weights, the bias, and the
    two blocks' entries at `(r, c)`. -/
theorem stored_apply (hb xb : Vec Ideal S2000x128 .f32) (w : Vec Ideal S128x1 .f32) (b : Vec Ideal S1x1 .f32)
    (r : Fin 2000) (c : Fin 128) :
    k0_pay1 (F := Ideal) hb xb w b (ix2 r c)
      = mix (fun k => hb (ix2 r k)) (fun k => w (ix2 k (0 : Fin 1))) (b (ix2 (0 : Fin 1) (0 : Fin 1)))
          (hb (ix2 r c)) (xb (ix2 r c)) := by
  unfold k0_pay1
  simp only [shapeCast_self, addf_apply, mulf_apply, subf_apply, lanes_apply, broadcast_apply]
  show Ideal.logistic (matmul D none hb w (constant (F := Ideal) S2000x1 .f32 0x00000000#32) (ix2 r (0 : Fin 1))
        + broadcastTo S2000x1 b broadcasts_S1x1_S2000x1 (ix2 r (0 : Fin 1))) * hb (ix2 r c)
      + (Ideal.ofBits .f32 0x3F800000#32
          - Ideal.logistic (matmul D none hb w (constant (F := Ideal) S2000x1 .f32 0x00000000#32) (ix2 r (0 : Fin 1))
            + broadcastTo S2000x1 b broadcasts_S1x1_S2000x1 (ix2 r (0 : Fin 1)))) * xb (ix2 r c) = _
  rw [product_apply, rows_apply, one_f32]
  rfl

end Cert.KernelIdeal.Stored

end
-- ==== Proof.FoundArrays.lean ====
/-
  What the region finds in the two arrays the host writes before the call.

  Before the kernel is launched the host computes the aggregated features — for every edge, the source node's feature
  row scaled by the edge's weight, summed into the destination node's row — and reshapes the bias from one entry to a
  1×1 array. The first is the same chain of operations, on the same arguments, that the reference runs; it is named
  here as one function `agg` of the four arguments it reads and is never opened: the two programs agree on it because
  they apply the same operations, not because of what the operations compute.
-/
import proofs.«151498_j54966991454711_1_alg».proof.Proof.Gen.KernelIdeal.Frame
import Idealize.ShloMosaic.Lib.StableHlo.Run
import Idealize.ShloMosaic.Lib.Pipeline.Value
import Idealize.ShloMosaic.Lib.ValueIdx
import proofs.«151498_j54966991454711_1_alg».proof.Proof.Gen.ReferenceIdeal.Read

noncomputable section

namespace Cert.KernelIdeal.Found

open Cert.KernelIdeal Cert.KernelIdeal.Gen Idealize.ShloMosaic Idealize.ShloMosaic.TcCoe Idealize.SL.Sem
  Idealize.ShloMosaic.StableHlo Idealize.ShloMosaic.ValueIdx

/-- The aggregated features as the host computes them before the call: each edge's source row of the node features
    (negative indices wrapped by the table's length), scaled by the edge's weight, summed into the edge's destination row
    of an all-zero array. -/
def agg {F : FTy → Type} [FloatOps F] (a0 : (⟨S50000x128, .f32⟩ : BufTy).Contents (Elt F))
    (a1 a2 : (⟨S800000, .i32⟩ : BufTy).Contents (Elt F)) (a3 : (⟨S800000, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 a2)
    (mulf (broadcastInDim S800000x128 ![0, 1] bcast_S800000x1_S800000x128_0_1
        (broadcastInDim S800000x1 ![0] bcast_S800000_S800000x1_0 a3))
      (Host.gather gather_S50000x128_S800000x1_S800000x128_1_0_n_n_0_1_1128 a0
        (broadcastInDim S800000x1 ![0] bcast_S800000_S800000x1_0
          (select (cmpi .slt a1 (broadcastInDim S800000 ![] bcast_S_S800000 (constantI S_ 32 0#32)))
            (addi a1 (broadcastInDim S800000 ![] bcast_S_S800000 (constantI S_ 32 50000#32))) a1))))

variable (m : (ℓ : Loc nD τ sig) → Buf (Elt Ideal) ℓ)

/-- The region finds the aggregated features in the array its first window stages. -/
theorem found_agg (c : Dev nD) : (V m c main_v12 : S50000x128.Idx → EReal)
    = agg (m ((c : Thread nD τ).loc main_arg0)) (m ((c : Thread nD τ).loc main_arg1)) (m ((c : Thread nD τ).loc main_arg2))
        (m ((c : Thread nD τ).loc main_arg3)) := by
  dsimp only [V, hostOps0]
  after_results
  unfold agg
  rfl

/-- The region finds the bias, reshaped, in the array its fourth window stages: the 1×1 array's entry is the bias's. -/
theorem found_bias (c : Dev nD) : (V m c main_v13 : S1x1.Idx → EReal) (ix2 (0 : Fin 1) (0 : Fin 1))
    = m ((c : Thread nD τ).loc main_arg5) (ix1 (0 : Fin 1)) := by
  have e : (V m c main_v13 : S1x1.Idx → EReal)
      = shapeCast S1x1 (m ((c : Thread nD τ).loc main_arg5)) shapeCasts_S1_S1x1 := by
    dsimp only [V, hostOps0]
    after_results
    rfl
  rw [e]
  exact shapeCast_apply _ shapeCasts_S1_S1x1 (ix2 (0 : Fin 1) (0 : Fin 1)) (ix1 (0 : Fin 1))
    (by rw [Shape.rowMajor_val_one, Shape.rowMajor_val_two]; rfl)

/-! ## The same chain in the reference -/

/-- The two programs' scatter and gather dimension records list the same axes. -/
theorem scatter_rec : scatter_S50000x128_S800000x1_S800000x128_1_0_0_1
    = Cert.ReferenceIdeal.scatter_S50000x128_S800000x1_S800000x128_1_0_0_1 := rfl
theorem gather_rec : gather_S50000x128_S800000x1_S800000x128_1_0_n_n_0_1_1128
    = Cert.ReferenceIdeal.gather_S50000x128_S800000x1_S800000x128_1_0_n_n_0_1_1128 := rfl

/-- The reference's aggregated features are `agg` of the same four arguments: operation for operation the same chain. -/
theorem agg_eq_ref (a0 : (⟨S50000x128, .f32⟩ : BufTy).Contents (Elt Ideal)) (a1 a2 : (⟨S800000, .i32⟩ : BufTy).Contents (Elt Ideal))
    (a3 : (⟨S800000, .f32⟩ : BufTy).Contents (Elt Ideal)) :
    agg (F := Ideal) a0 a1 a2 a3 = Cert.ReferenceIdeal.Read.val_main_v12 (F := Ideal) a0 a1 a2 a3 := by
  unfold agg Cert.ReferenceIdeal.Read.val_main_v12 Cert.ReferenceIdeal.Read.val_main_v11 Cert.ReferenceIdeal.Read.val_main_v10
    Cert.ReferenceIdeal.Read.val_main_cst Cert.ReferenceIdeal.Read.val_main_v9 Cert.ReferenceIdeal.Read.val_main_v8
    Cert.ReferenceIdeal.Read.val_main_v0 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_c_0 Cert.ReferenceIdeal.Read.val_main_v2 Cert.ReferenceIdeal.Read.val_main_v1
    Cert.ReferenceIdeal.Read.val_main_c
  rw [scatter_rec, gather_rec]

end Cert.KernelIdeal.Found

end
-- ==== Proof.WholeArray.lean ====
/-
  From blocks to the whole array.

  The grid has 25 points; at point `t` the kernel is handed rows `2000·t … 2000·t + 1999` of the aggregated features and
  of the node features (all 128 lanes), the whole weight column and the whole 1×1 bias, and writes back the same rows of
  the output. What it writes back is the stored block of the body, whose entry `(r, c)` is `mix` of row `r` of the
  aggregated block, the weights, the bias and the two entries at `(r, c)`. Since the blocks are restrictions of the
  arrays the region finds — block row `r` is array row `2000·t + r`, lanes unchanged — that entry is the whole-array
  function `out` at `(2000·t + r, c)`. Every row lies in exactly one block (row `ρ` in block `ρ / 2000`), so after
  the run the output array is `out` of the arrays the region found.
-/
import proofs.«151498_j54966991454711_1_alg».proof.Proof.Gen.KernelIdeal.Value
import proofs.«151498_j54966991454711_1_alg».proof.Proof.StoredBlock
import proofs.«151498_j54966991454711_1_alg».proof.Proof.GatedMix

noncomputable section

namespace Cert.KernelIdeal.Whole

open Cert.KernelIdeal Cert.KernelIdeal.Gen Idealize.ShloMosaic Idealize.ShloMosaic.TcCoe Idealize.SL.Sem
  Idealize.ShloMosaic.ValueIdx Cert.GatedMix
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Over the 25 grid points: the aggregated features, the node features and the output move together, block `t` of
    rows at point `t`, all 128 lanes; the weight column and the bias are the same whole block at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The output array as ONE function of the arrays the region finds. -/
def whole (c : Dev nD) : S50000x128.Idx → EReal :=
  out (V m c main_v12) (V m c main_arg0) (V m c main_arg4) (V m c main_v13 (ix2 (0 : Fin 1) (0 : Fin 1)))

/-! ## Reading a window's block off the array the region finds -/

theorem read_agg (c : Dev nD) (t : Fin cfg0.N) (y : S2000x128.Idx) :
    iblk m c 0 t y = V m c main_v12 (((cfg0.win 0).blk t).view.emb y) := by
  unfold iblk; rw [View.read_apply, cast_eq]

theorem read_feat (c : Dev nD) (t : Fin cfg0.N) (y : S2000x128.Idx) :
    iblk m c 1 t y = V m c main_arg0 (((cfg0.win 1).blk t).view.emb y) := by
  unfold iblk; rw [View.read_apply, cast_eq]

theorem read_weights (c : Dev nD) (t : Fin cfg0.N) (y : S128x1.Idx) :
    iblk m c 2 t y = V m c main_arg4 (((cfg0.win 2).blk t).view.emb y) := by
  unfold iblk; rw [View.read_apply, cast_eq]

theorem read_bias (c : Dev nD) (t : Fin cfg0.N) (y : S1x1.Idx) :
    iblk m c 3 t y = V m c main_v13 (((cfg0.win 3).blk t).view.emb y) := by
  unfold iblk; rw [View.read_apply, cast_eq]

/-! ## The stored entry is the whole-array function at the entry's place in the array -/

/-- Blocks that are restrictions of whole arrays — row `r` of the aggregated block is row `i 0` of `A`, the two
    entries at `(r, c)` are `A i` and `X i`, the weights and the bias are `W` and `b` — store `out A X W b` at `i`. -/
theorem stored_is_out (A X : S50000x128.Idx → EReal) (W : S128x1.Idx → EReal) (b : EReal)
    (hb xb : Vec Ideal S2000x128 .f32) (w : Vec Ideal S128x1 .f32) (bb : Vec Ideal S1x1 .f32)
    (i : S50000x128.Idx) (r : Fin 2000) (cc : Fin 128)
    (hrow : ∀ k : Fin 128, hb (ix2 r k) = A (ix2 (i 0) k)) (hA : hb (ix2 r cc) = A i) (hX : xb (ix2 r cc) = X i)
    (hW : ∀ k : Fin 128, w (ix2 k (0 : Fin 1)) = W (ix2 k (0 : Fin 1))) (hbias : bb (ix2 (0 : Fin 1) (0 : Fin 1)) = b) :
    k0_pay1 (F := Ideal) hb xb w bb (ix2 r cc) = out A X W b i := by
  rw [Stored.stored_apply, funext hrow, funext hW, hA, hX, hbias]
  rfl

/-! ## What point `t` writes back -/

/-- Point `t` writes back block `t` of `whole`: each entry of the stored block is `out` at its place in the array. -/
theorem flushed_eq (c : Dev nD) (t : Fin cfg0.N) :
    (dats m 0 c).flushed 4 t = ((cfg0.win 4).blk t).view.read (Elt Ideal) (whole m c) := by
  rw [Value.flushed4 m c t]
  unfold out0_4
  rw [View.canon_unit_zero zero_offsets]
  rw [View.ld_unit_zero (S := S2000x128) zero_offsets, View.ld_unit_zero (S := S2000x128) zero_offsets,
    View.ld_unit_zero (S := S128x1) zero_offsets, View.ld_unit_zero (S := S1x1) zero_offsets]
  funext j
  rw [View.read_apply, cast_eq]
  show k0_pay1 (iblk m c 0 t) (iblk m c 1 t) (iblk m c 2 t) (iblk m c 3 t) ((cfg0.win 4).xinj (grid0.coords t) j) = _
  rw [eq_ix2 ((cfg0.win 4).xinj (grid0.coords t) j)]
  obtain ⟨e00, e01, e10, e11, e20, e21, e30, e31, e40, e41⟩ := index_facts t
  unfold whole
  refine stored_is_out (V m c main_v12) (V m c main_arg0) (V m c main_arg4) (V m c main_v13 (ix2 (0 : Fin 1) (0 : Fin 1)))
    (iblk m c 0 t) (iblk m c 1 t) (iblk m c 2 t) (iblk m c 3 t) (((cfg0.win 4).blk t).view.emb j) _ _ ?_ ?_ ?_ ?_ ?_
  · -- row `r` of the aggregated block is the array's row under the output entry
    intro k
    rw [read_agg]
    refine congrArg (V m c main_v12) (funext fun a => Fin.ext ?_)
    match a with
    | ⟨0, _⟩ =>
      show win0_0.index t (0 : Fin 2) * 2000 + 1 * (j 0).val = win0_4.index t (0 : Fin 2) * 2000 + 1 * (j 0).val
      omega
    | ⟨1, _⟩ =>
      show win0_0.index t (1 : Fin 2) * 128 + 1 * k.val = k.val
      omega
  · -- the aggregated entry at `(r, c)`
    rw [read_agg]
    refine congrArg (V m c main_v12) (funext fun a => Fin.ext ?_)
    match a with
    | ⟨0, _⟩ =>
      show win0_0.index t (0 : Fin 2) * 2000 + 1 * (j 0).val = win0_4.index t (0 : Fin 2) * 2000 + 1 * (j 0).val
      omega
    | ⟨1, _⟩ =>
      show win0_0.index t (1 : Fin 2) * 128 + 1 * (j 1).val = win0_4.index t (1 : Fin 2) * 128 + 1 * (j 1).val
      omega
  · -- the node-feature entry at `(r, c)`
    rw [read_feat]
    refine congrArg (V m c main_arg0) (funext fun a => Fin.ext ?_)
    match a with
    | ⟨0, _⟩ =>
      show win0_1.index t (0 : Fin 2) * 2000 + 1 * (j 0).val = win0_4.index t (0 : Fin 2) * 2000 + 1 * (j 0).val
      omega
    | ⟨1, _⟩ =>
      show win0_1.index t (1 : Fin 2) * 128 + 1 * (j 1).val = win0_4.index t (1 : Fin 2) * 128 + 1 * (j 1).val
      omega
  · -- the weight column is the whole array at every point
    intro k
    rw [read_weights]
    refine congrArg (V m c main_arg4) (funext fun a => Fin.ext ?_)
    match a with
    | ⟨0, _⟩ =>
      show win0_2.index t (0 : Fin 2) * 128 + 1 * k.val = k.val
      omega
    | ⟨1, _⟩ =>
      show win0_2.index t (1 : Fin 2) * 1 + 1 * 0 = 0
      omega
  · -- so is the bias
    rw [read_bias]
    refine congrArg (V m c main_v13) (funext fun a => Fin.ext ?_)
    match a with
    | ⟨0, _⟩ =>
      show win0_3.index t (0 : Fin 2) * 1 + 1 * 0 = 0
      omega
    | ⟨1, _⟩ =>
      show win0_3.index t (1 : Fin 2) * 1 + 1 * 0 = 0
      omega

/-! ## Every entry of the array is in some block -/

/-- An index is in point `t`'s output block iff each coordinate is in the block's range on its axis. -/
theorem mem_block (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v14).slice (win0_4.rect t)).set ↔ _
  rw [View.set_slice_whole, Rect.mem_set_unit]
  exact Iff.rfl

/-- Row `ρ` of the output lies in the block of point `ρ / 2000`, which writes back. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨e00, e01, e10, e11, e20, e21, e30, e31, e40, e41⟩ := index_facts t
  refine ⟨t, flush0_4 t, ?_⟩
  rw [mem_block]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-! ## The array after the run -/

/-- After the run the output array is `whole`. -/
theorem final (c : Dev nD) : (dats m 0 c).arrAt 4 cfg0.N = whole m c :=
  (dats m 0 c).arrAt_eq_of_cover 4 (whole m c) (fun t _ => flushed_eq m c t) covered

/-- The kernel's run with its result named: the output array ends at `whole`, the arguments unchanged. -/
theorem run : θ_run defs (onTc (τ := τ) (main (F := Ideal))) ⟨m, fun _ => 0, ρ⟩ fun r => ∀ c : Dev nD,
      r.2.mem ((c : Thread nD τ).loc main_v14) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  A gated residual combine over a sparse aggregation, against its array-level reference.

  Both programs first aggregate: for every edge, the source node's feature row scaled by the edge's weight is summed
  into the destination node's row, giving `h` (50000 × 128). Both then mix `h` with the node features `x` by a
  per-node gate, `out r c = g r · h r c + (1 − g r) · x r c` with `g r = σ(Σ_k h r k · w k + b)`.

  The aggregation is the same chain of host operations on the same arguments in the two programs, so it is carried as
  one unopened function. The combine differs only in spelling. The kernel computes it 2000 rows at a time: a matrix
  product into a zero accumulator, which on the extended reals is the plain sum over the 128 contraction indices; the
  sigmoid as one operation; the gate column broadcast across the lanes. The reference computes it on whole arrays: a
  `dot_general`, the same sum; the sigmoid spelt `1 / (1 + e^(−z))`, which is the sigmoid's definition, with the word
  of `1.0` denoting one; the same broadcasts. The 25 row blocks tile the array, each row in exactly one block, so the
  kernel's output array is the same function of the arguments as the reference's. No law used here needs the inputs
  finite: the two sides are the same expression in `h`, `x`, `w`, `b`, not rearrangements of one another.

  Nothing was rewritten between the kernel as printed and the kernel read on the extended reals, so the third claim has
  nothing to state. The frames are the generated ones; the reference's is its run with the result forgotten.
-/
import proofs.«151498_j54966991454711_1_alg».proof.Defs
import proofs.«151498_j54966991454711_1_alg».proof.Proof.Gen.Kernel
import proofs.«151498_j54966991454711_1_alg».proof.Proof.Gen.Kernel.Skeleton
import proofs.«151498_j54966991454711_1_alg».proof.Proof.Gen.Kernel.Launch
import proofs.«151498_j54966991454711_1_alg».proof.Proof.Gen.Kernel.Points
import proofs.«151498_j54966991454711_1_alg».proof.Proof.Gen.Kernel.Frame
import proofs.«151498_j54966991454711_1_alg».proof.Proof.Gen.KernelIdeal
import proofs.«151498_j54966991454711_1_alg».proof.Proof.Gen.KernelIdeal.Skeleton
import proofs.«151498_j54966991454711_1_alg».proof.Proof.Gen.KernelIdeal.Launch
import proofs.«151498_j54966991454711_1_alg».proof.Proof.Gen.KernelIdeal.Points
import proofs.«151498_j54966991454711_1_alg».proof.Proof.Gen.KernelIdeal.Frame
import proofs.«151498_j54966991454711_1_alg».proof.Proof.Gen.ReferenceIdeal
import proofs.«151498_j54966991454711_1_alg».proof.Proof.Gen.Pre_finite_inputs
import proofs.«151498_j54966991454711_1_alg».proof.Proof.Gen.KernelIdeal.Value
import proofs.«151498_j54966991454711_1_alg».proof.Proof.Gen.ReferenceIdeal.Run
import proofs.«151498_j54966991454711_1_alg».proof.Proof.Gen.ReferenceIdeal.Read
import proofs.«151498_j54966991454711_1_alg».proof.Proof.GatedMix
import proofs.«151498_j54966991454711_1_alg».proof.Proof.RefIsMix
import proofs.«151498_j54966991454711_1_alg».proof.Proof.StoredBlock
import proofs.«151498_j54966991454711_1_alg».proof.Proof.FoundArrays
import proofs.«151498_j54966991454711_1_alg».proof.Proof.WholeArray
import Idealize.ShloMosaic.Adequacy
import Idealize.ShloMosaic.Init

noncomputable section

namespace Cert.Proof

open Idealize.ShloMosaic Idealize.ShloMosaic.TcCoe Idealize.SL.Sem Idealize.ShloMosaic.ValueIdx Cert.GatedMix

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-! ## The kernel's output array over the launch arguments -/

section
open Cert.KernelIdeal

/-- The array the kernel leaves is `out` of the aggregated features (the reference's own term for them, of the kernel's
    arguments), the node features, the gate weights and the bias entry: the region finds the first in the array the host
    wrote, the second and third as launched, and the bias reshaped. -/
theorem kernel_array (m : (ℓ : Loc nD τ sig) → Buf (Elt Ideal) ℓ) (c : Dev nD) :
    Cert.KernelIdeal.Whole.whole m c
      = out (Cert.ReferenceIdeal.Read.val_main_v12 (F := Ideal) (m ((c.tc : Thread nD τ).loc main_arg0))
            (m ((c.tc : Thread nD τ).loc main_arg1)) (m ((c.tc : Thread nD τ).loc main_arg2))
            (m ((c.tc : Thread nD τ).loc main_arg3)))
          (m ((c.tc : Thread nD τ).loc main_arg0)) (m ((c.tc : Thread nD τ).loc main_arg4))
          (m ((c.tc : Thread nD τ).loc main_arg5) (ix1 (0 : Fin 1))) := by
  unfold Cert.KernelIdeal.Whole.whole
  rw [Cert.KernelIdeal.Found.found_agg m c, Cert.KernelIdeal.Found.found_bias m c, Cert.KernelIdeal.Gen.V_main_arg0 m c,
    Cert.KernelIdeal.Gen.V_main_arg4 m c, Cert.KernelIdeal.Found.agg_eq_ref]

end

/-! ## The two results are equal -/

/-- From memories agreeing on the arguments, the kernel's output array and the reference's result are `out` of the same
    four things. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.IsMix.val_eq_out, (hagree c).1, (hagree c).2.1,
    (hagree c).2.2.1, (hagree c).2.2.2.1, (hagree c).2.2.2.2.1, (hagree c).2.2.2.2.2]
  exact (kernel_array m c).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
